-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S2x1600000 32) (main_arg1 : FVec F S100000x128 .f32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The run of the idealized kernel program with its result named. The program is three stretches of host operations, the
  first product call, a stretch, the clipped-bias call, the second product call, a stretch, and the last bias call. Every
  weakly fair execution terminates, and every buffer the calls do not scope ends at the contents the segments leave one
  after the other: a host stretch rewrites the buffers its operations write, a call rewrites its three arrays with what
  its grid points wrote back. Here that is read at the returned buffer as well as at the six arguments.
-/
import proofs.«110535_j21569325760838_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the returned buffer ends at what the last
    call's write-backs leave in it, and the six arguments end as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Aggregate.lean ====
/-
  The neighbourhood sum both programs apply after each product, as one function of what it reads: the product `h`, the
  source and destination node of every edge (the graph's edges followed by one self-loop per node), and the edge weights.
  The reference's two aggregation stages are this function of its own earlier stages; its second layer recomputes the node
  lists and the weights from the edge list, by the same operations, so they are the first layer's.
-/
import proofs.«110535_j21569325760838_1_alg».proof.Proof.RefRead

noncomputable section

namespace Cert.ReferenceIdeal.Agg

open Cert.ReferenceIdeal Cert.ReferenceIdeal.Gen Cert.ReferenceIdeal.ReadP Idealize.ShloMosaic Idealize.ShloMosaic.TcCoe

variable {F : FTy → Type} [FloatOps F]

/-- Gather the rows `s` of `h`, scale row `e` by `nrm e`, and add row `e` into row `d e` of a zero array (an index below zero
    is first moved up by 100000). -/
def aggregate128 (h : (⟨S100000x128, .f32⟩ : BufTy).Contents (Elt F)) (s d : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x128 ![0, 1] bcast_S1700000x1_S1700000x128_0_1 (broadcastInDim S1700000x1 ![0] bcast_S1700000_S1700000x1_0 nrm)))

/-- Gather the rows `s` of `h`, scale row `e` by `nrm e`, and add row `e` into row `d e` of a zero array (an index below zero
    is first moved up by 100000). -/
def aggregate64 (h : (⟨S100000x64, .f32⟩ : BufTy).Contents (Elt F)) (s d : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1 (broadcastInDim S1700000x1 ![0] bcast_S1700000_S1700000x1_0 nrm)))

/-- A node list with every index below zero moved up by 100000, as a one-column matrix. -/
def wrapped (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weight of every edge: the per-node factor at its source times the per-node factor at its destination. -/
def weights (dinv : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 dinv (wrapped (F := F) s))
    (Host.gather gather_S100000_S1700000x1_S1700000_n_0_n_n_0_1_1 dinv (wrapped (F := F) d))

/-- The per-node factor: the inverse square root of the degree where the degree is positive, the scalar `z` elsewhere. -/
def factor (pos : (⟨S100000, .i1⟩ : BufTy).Contents (Elt F)) (rs : (⟨S100000, .f32⟩ : BufTy).Contents (Elt F))
    (z : (⟨S_, .f32⟩ : BufTy).Contents (Elt F)) : (⟨S100000, .f32⟩ : BufTy).Contents (Elt F) :=
  select pos rs (broadcastInDim S100000 ![] bcast_S_S100000 (id z))

/-- The reference's edge weights, over its per-node factor and its two node lists. -/
theorem stage30 (x0 : (⟨S2x1600000, .i32⟩ : BufTy).Contents (Elt F)) :
    val_main_v30 (F := F) x0 = weights (val_main_v15 (F := F) x0) (val_main_v6 (F := F) x0) (val_main_v7 (F := F) x0) := rfl

/-- The reference's per-node factor, over its degree test, its inverse square root and its zero. -/
theorem stage15 (x0 : (⟨S2x1600000, .i32⟩ : BufTy).Contents (Elt F)) :
    val_main_v15 (F := F) x0 = factor (val_main_v13 (F := F) x0) (val_main_v14 (F := F) x0) (val_main_cst_2 (F := F)) := rfl

/-- The first layer's aggregation stage is the neighbourhood sum of the first product over the source list, the
    destination list and the weights. -/
theorem stage43 (x0 : (⟨S2x1600000, .i32⟩ : BufTy).Contents (Elt F)) (x1 : (⟨S100000x128, .f32⟩ : BufTy).Contents (Elt F))
    (x2 : (⟨S128x128, .f32⟩ : BufTy).Contents (Elt F)) :
    val_main_v43 (F := F) x0 x1 x2
      = aggregate128 (val_main_v4 (F := F) x1 x2) (val_main_v6 (F := F) x0) (val_main_v7 (F := F) x0) (val_main_v30 (F := F) x0) := rfl

/-- The second layer's source list is the first layer's. -/
theorem src_again (x0 : (⟨S2x1600000, .i32⟩ : BufTy).Contents (Elt F)) : val_main_v50 (F := F) x0 = val_main_v6 (F := F) x0 := rfl
/-- The second layer's destination list is the first layer's. -/
theorem dst_again (x0 : (⟨S2x1600000, .i32⟩ : BufTy).Contents (Elt F)) : val_main_v51 (F := F) x0 = val_main_v7 (F := F) x0 := rfl
/-- The second layer's weights are the first layer's. -/
theorem nrm_again (x0 : (⟨S2x1600000, .i32⟩ : BufTy).Contents (Elt F)) : val_main_v74 (F := F) x0 = val_main_v30 (F := F) x0 := rfl

/-- The second layer's aggregation stage is the neighbourhood sum of the second product over the same lists and weights. -/
theorem stage87 (x0 : (⟨S2x1600000, .i32⟩ : BufTy).Contents (Elt F)) (x1 : (⟨S100000x128, .f32⟩ : BufTy).Contents (Elt F))
    (x2 : (⟨S128x128, .f32⟩ : BufTy).Contents (Elt F)) (x3 : (⟨S128, .f32⟩ : BufTy).Contents (Elt F)) (x4 : (⟨S128x64, .f32⟩ : BufTy).Contents (Elt F)) :
    val_main_v87 (F := F) x0 x1 x2 x3 x4
      = aggregate64 (val_main_v48 (F := F) x0 x1 x2 x3 x4) (val_main_v6 (F := F) x0) (val_main_v7 (F := F) x0) (val_main_v30 (F := F) x0) := by
  have e : val_main_v87 (F := F) x0 x1 x2 x3 x4
      = aggregate64 (val_main_v48 (F := F) x0 x1 x2 x3 x4) (val_main_v50 (F := F) x0) (val_main_v51 (F := F) x0) (val_main_v74 (F := F) x0) := rfl
  rw [e, src_again, dst_again, nrm_again]

end Cert.ReferenceIdeal.Agg

end
-- ==== Proof.HostStretches.lean ====
/-
  What the host operations between the kernel calls compute, stretch by stretch, from any buffer contents `B` they start at.
  Before the first call: the source and destination node of every edge (the graph's edges followed by one self-loop per
  node) and the edge weights, the product of the two end nodes' inverse square-root degrees. These are the reference's own
  stages of the edge list, operation by operation. After each product call: the neighbourhood sum of the product over those
  lists and weights, and the bias vector laid out as a one-row matrix. No stretch writes a buffer a later segment reads
  from an earlier one.
-/
import proofs.«110535_j21569325760838_1_alg».proof.Proof.Gen.KernelIdeal.Launch
import proofs.«110535_j21569325760838_1_alg».proof.Proof.Aggregate
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (B : Valuation τ sig (Elt Ideal))

/-- The contents after the three stretches before the first call, from `B`. -/
abbrev before0 : Valuation τ sig (Elt Ideal) :=
  after (hostOps0_2 (F := Ideal)) (after (hostOps0_1 (F := Ideal)) (after (hostOps0 (F := Ideal)) B))

set_option maxHeartbeats 4000000 in
/-- The source list is the reference's. -/
theorem before0_src : before0 B (Proc.devRef .tc main_v5) = Cert.ReferenceIdeal.ReadP.val_main_v6 (F := Ideal) (B (Proc.devRef .tc main_arg0)) := by
  dsimp only [before0, hostOps0, hostOps0_1, hostOps0_2]
  after_results_simp
  rfl

set_option maxHeartbeats 4000000 in
/-- The destination list is the reference's. -/
theorem before0_dst : before0 B (Proc.devRef .tc main_v6) = Cert.ReferenceIdeal.ReadP.val_main_v7 (F := Ideal) (B (Proc.devRef .tc main_arg0)) := by
  dsimp only [before0, hostOps0, hostOps0_1, hostOps0_2]
  after_results_simp
  rfl

/-! The edge weights, stretch by stretch: the first stretch leaves the degree test and the inverse square root of the
degree, the second the per-node factor, the third the weights. -/

set_option maxHeartbeats 4000000 in
theorem first_pos : after (hostOps0 (F := Ideal)) B (Proc.devRef .tc main_v12) = Cert.ReferenceIdeal.ReadP.val_main_v13 (F := Ideal) (B (Proc.devRef .tc main_arg0)) := by
  dsimp only [hostOps0]
  after_results_simp
  rfl

set_option maxHeartbeats 4000000 in
theorem first_rsqrt : after (hostOps0 (F := Ideal)) B (Proc.devRef .tc main_v13) = Cert.ReferenceIdeal.ReadP.val_main_v14 (F := Ideal) (B (Proc.devRef .tc main_arg0)) := by
  dsimp only [hostOps0]
  after_results_simp
  rfl

set_option maxHeartbeats 4000000 in
theorem first_zero : after (hostOps0 (F := Ideal)) B (Proc.devRef .tc main_cst_2) = Cert.ReferenceIdeal.ReadP.val_main_cst_2 (F := Ideal) := by
  dsimp only [hostOps0]
  after_results_simp
  rfl

set_option maxHeartbeats 4000000 in
theorem first_src : after (hostOps0 (F := Ideal)) B (Proc.devRef .tc main_v5) = Cert.ReferenceIdeal.ReadP.val_main_v6 (F := Ideal) (B (Proc.devRef .tc main_arg0)) := by
  dsimp only [hostOps0]
  after_results_simp
  rfl

set_option maxHeartbeats 4000000 in
theorem first_dst : after (hostOps0 (F := Ideal)) B (Proc.devRef .tc main_v6) = Cert.ReferenceIdeal.ReadP.val_main_v7 (F := Ideal) (B (Proc.devRef .tc main_arg0)) := by
  dsimp only [hostOps0]
  after_results_simp
  rfl

set_option maxHeartbeats 4000000 in
theorem second_factor : after (hostOps0_1 (F := Ideal)) B (Proc.devRef .tc main_v14)
    = Cert.ReferenceIdeal.Agg.factor (F := Ideal) (B (Proc.devRef .tc main_v12)) (B (Proc.devRef .tc main_v13)) (B (Proc.devRef .tc main_cst_2)) := by
  dsimp only [hostOps0_1]
  after_results_simp
  rfl

set_option maxHeartbeats 4000000 in
theorem second_keep_main_v5 : after (hostOps0_1 (F := Ideal)) B (Proc.devRef .tc main_v5) = B (Proc.devRef .tc main_v5) := by
  dsimp only [hostOps0_1]
  after_results_simp

set_option maxHeartbeats 4000000 in
theorem second_keep_main_v6 : after (hostOps0_1 (F := Ideal)) B (Proc.devRef .tc main_v6) = B (Proc.devRef .tc main_v6) := by
  dsimp only [hostOps0_1]
  after_results_simp

set_option maxHeartbeats 4000000 in
theorem third_weights : after (hostOps0_2 (F := Ideal)) B (Proc.devRef .tc main_v29)
    = Cert.ReferenceIdeal.Agg.weights (F := Ideal) (B (Proc.devRef .tc main_v14)) (B (Proc.devRef .tc main_v5)) (B (Proc.devRef .tc main_v6)) := by
  dsimp only [hostOps0_2]
  after_results_simp
  rfl

/-- The edge weights are the reference's. -/
theorem before0_nrm : before0 B (Proc.devRef .tc main_v29) = Cert.ReferenceIdeal.ReadP.val_main_v30 (F := Ideal) (B (Proc.devRef .tc main_arg0)) := by
  refine (third_weights (after (hostOps0_1 (F := Ideal)) (after (hostOps0 (F := Ideal)) B))).trans ?_
  rw [second_factor, second_keep_main_v5, second_keep_main_v6, first_pos, first_rsqrt, first_zero, first_src, first_dst,
    ← Cert.ReferenceIdeal.Agg.stage15, ← Cert.ReferenceIdeal.Agg.stage30]

set_option maxHeartbeats 4000000 in
theorem before0_keep_main_arg1 : before0 B (Proc.devRef .tc main_arg1) = B (Proc.devRef .tc main_arg1) := by
  dsimp only [before0, hostOps0, hostOps0_1, hostOps0_2]
  after_results_simp

set_option maxHeartbeats 4000000 in
theorem before0_keep_main_arg2 : before0 B (Proc.devRef .tc main_arg2) = B (Proc.devRef .tc main_arg2) := by
  dsimp only [before0, hostOps0, hostOps0_1, hostOps0_2]
  after_results_simp

set_option maxHeartbeats 4000000 in
theorem before0_keep_main_arg3 : before0 B (Proc.devRef .tc main_arg3) = B (Proc.devRef .tc main_arg3) := by
  dsimp only [before0, hostOps0, hostOps0_1, hostOps0_2]
  after_results_simp

set_option maxHeartbeats 4000000 in
theorem before0_keep_main_arg4 : before0 B (Proc.devRef .tc main_arg4) = B (Proc.devRef .tc main_arg4) := by
  dsimp only [before0, hostOps0, hostOps0_1, hostOps0_2]
  after_results_simp

set_option maxHeartbeats 4000000 in
theorem before0_keep_main_arg5 : before0 B (Proc.devRef .tc main_arg5) = B (Proc.devRef .tc main_arg5) := by
  dsimp only [before0, hostOps0, hostOps0_1, hostOps0_2]
  after_results_simp

/-! ## The stretch between the first product call and the clipped-bias call -/

set_option maxHeartbeats 4000000 in
theorem mid_agg : after (hostOps1 (F := Ideal)) B (Proc.devRef .tc main_v43)
    = Cert.ReferenceIdeal.Agg.aggregate128 (F := Ideal) (B (Proc.devRef .tc main_v30)) (B (Proc.devRef .tc main_v5)) (B (Proc.devRef .tc main_v6)) (B (Proc.devRef .tc main_v29)) := by
  dsimp only [hostOps1]
  after_results_simp
  rfl

set_option maxHeartbeats 4000000 in
theorem mid_bias : after (hostOps1 (F := Ideal)) B (Proc.devRef .tc main_v44) = shapeCast S1x128 (B (Proc.devRef .tc main_arg3)) shapeCasts_S128_S1x128 := by
  dsimp only [hostOps1]
  after_results_simp
  rfl

set_option maxHeartbeats 4000000 in
theorem mid_keep_main_v5 : after (hostOps1 (F := Ideal)) B (Proc.devRef .tc main_v5) = B (Proc.devRef .tc main_v5) := by
  dsimp only [hostOps1]
  after_results_simp

set_option maxHeartbeats 4000000 in
theorem mid_keep_main_v6 : after (hostOps1 (F := Ideal)) B (Proc.devRef .tc main_v6) = B (Proc.devRef .tc main_v6) := by
  dsimp only [hostOps1]
  after_results_simp

set_option maxHeartbeats 4000000 in
theorem mid_keep_main_v29 : after (hostOps1 (F := Ideal)) B (Proc.devRef .tc main_v29) = B (Proc.devRef .tc main_v29) := by
  dsimp only [hostOps1]
  after_results_simp

set_option maxHeartbeats 4000000 in
theorem mid_keep_main_arg4 : after (hostOps1 (F := Ideal)) B (Proc.devRef .tc main_arg4) = B (Proc.devRef .tc main_arg4) := by
  dsimp only [hostOps1]
  after_results_simp

set_option maxHeartbeats 4000000 in
theorem mid_keep_main_arg5 : after (hostOps1 (F := Ideal)) B (Proc.devRef .tc main_arg5) = B (Proc.devRef .tc main_arg5) := by
  dsimp only [hostOps1]
  after_results_simp

/-! ## The stretch between the second product call and the last bias call -/

set_option maxHeartbeats 4000000 in
theorem last_agg : after (hostOps3 (F := Ideal)) B (Proc.devRef .tc main_v59)
    = Cert.ReferenceIdeal.Agg.aggregate64 (F := Ideal) (B (Proc.devRef .tc main_v46)) (B (Proc.devRef .tc main_v5)) (B (Proc.devRef .tc main_v6)) (B (Proc.devRef .tc main_v29)) := by
  dsimp only [hostOps3]
  after_results_simp
  rfl

set_option maxHeartbeats 4000000 in
theorem last_bias : after (hostOps3 (F := Ideal)) B (Proc.devRef .tc main_v60) = shapeCast S1x64 (B (Proc.devRef .tc main_arg5)) shapeCasts_S64_S1x64 := by
  dsimp only [hostOps3]
  after_results_simp
  rfl

end Cert.KernelIdeal.Host

end
-- ==== Proof.Payloads.lean ====
/-
  What each of the four kernel bodies stores, read at one index of its block, at the ideal instance.
  The two matrix-product bodies store, at row `p` and column `q` of a block of 10000 rows, the sum over the 128
  contracted positions `k` of the row's entry at `k` times the weight's entry at (`k`, `q`): the roundings to bf16 on
  the way in are the identity on extended reals and the accumulator starts at zero. The two bias bodies store the
  block's entry plus the bias row's entry in the same column, the first of them then clipped below at zero.
-/
import proofs.«110535_j21569325760838_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx
open scoped BigOperators

/-! The operand positions of the two products: at result position `j` and contracted position `kk`, the left operand is
read at (row of `j`, `kk`) and the right operand at (`kk`, column of `j`). -/

theorem d128_lhs0 (j : S10000x128.Idx) (kk : dot_S10000x128_S128x128_S10000x128_1_0_0_1_n_n.contr.Idx) : (dot_S10000x128_S128x128_S10000x128_1_0_0_1_n_n.lhsIdx j kk 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d128_lhs1 (j : S10000x128.Idx) (kk : dot_S10000x128_S128x128_S10000x128_1_0_0_1_n_n.contr.Idx) : (dot_S10000x128_S128x128_S10000x128_1_0_0_1_n_n.lhsIdx j kk 1).val = (kk ⟨0, by decide⟩).val :=
  dot_S10000x128_S128x128_S10000x128_1_0_0_1_n_n.lhsIdx_val_of_single rfl j kk
theorem d128_rhs0 (j : S10000x128.Idx) (kk : dot_S10000x128_S128x128_S10000x128_1_0_0_1_n_n.contr.Idx) : (dot_S10000x128_S128x128_S10000x128_1_0_0_1_n_n.rhsIdx j kk 0).val = (kk ⟨0, by decide⟩).val :=
  dot_S10000x128_S128x128_S10000x128_1_0_0_1_n_n.rhsIdx_val_of_single rfl j kk
theorem d128_rhs1 (j : S10000x128.Idx) (kk : dot_S10000x128_S128x128_S10000x128_1_0_0_1_n_n.contr.Idx) : (dot_S10000x128_S128x128_S10000x128_1_0_0_1_n_n.rhsIdx j kk 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem d64_lhs0 (j : S10000x64.Idx) (kk : dot_S10000x128_S128x64_S10000x64_1_0_0_1_n_n.contr.Idx) : (dot_S10000x128_S128x64_S10000x64_1_0_0_1_n_n.lhsIdx j kk 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d64_lhs1 (j : S10000x64.Idx) (kk : dot_S10000x128_S128x64_S10000x64_1_0_0_1_n_n.contr.Idx) : (dot_S10000x128_S128x64_S10000x64_1_0_0_1_n_n.lhsIdx j kk 1).val = (kk ⟨0, by decide⟩).val :=
  dot_S10000x128_S128x64_S10000x64_1_0_0_1_n_n.lhsIdx_val_of_single rfl j kk
theorem d64_rhs0 (j : S10000x64.Idx) (kk : dot_S10000x128_S128x64_S10000x64_1_0_0_1_n_n.contr.Idx) : (dot_S10000x128_S128x64_S10000x64_1_0_0_1_n_n.rhsIdx j kk 0).val = (kk ⟨0, by decide⟩).val :=
  dot_S10000x128_S128x64_S10000x64_1_0_0_1_n_n.rhsIdx_val_of_single rfl j kk
theorem d64_rhs1 (j : S10000x64.Idx) (kk : dot_S10000x128_S128x64_S10000x64_1_0_0_1_n_n.contr.Idx) : (dot_S10000x128_S128x64_S10000x64_1_0_0_1_n_n.rhsIdx j kk 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The first product body at (`p`, `q`): the row of the block against the column of the 128×128 weight. -/
theorem prod128_at (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact d128_lhs0 _ _
    | ⟨1, _⟩ => exact (d128_lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (d128_rhs0 _ _).trans hk
    | ⟨1, _⟩ => exact d128_rhs1 _ _)
  rw [el, er]
  rfl

/-- The second product body at (`p`, `q`): the row of the block against the column of the 128×64 weight. -/
theorem prod64_at (x : Vec Ideal S10000x128 .f32) (w : Vec Ideal S128x64 .f32) (p : Fin 10000) (q : Fin 64) :
    k2_pay1 (F := Ideal) x w (ix2 p q) = ∑ k : Fin 128, x (ix2 p k) * w (ix2 k q) := by
  unfold k2_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact d64_lhs0 _ _
    | ⟨1, _⟩ => exact (d64_lhs1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (d64_rhs0 _ _).trans hk
    | ⟨1, _⟩ => exact d64_rhs1 _ _)
  rw [el, er, truncf_apply, truncf_apply, shapeCast_self]

/-- A one-row vector broadcast down 10000 rows of width 128 reads, at (`p`, `q`), its entry in column `q`. -/
theorem rowBcast128_at (b : Vec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => by
    match a with
    | ⟨0, _⟩ => rfl
    | ⟨1, _⟩ => rfl)

/-- The same for width 64. -/
theorem rowBcast64_at (b : Vec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => by
    match a with
    | ⟨0, _⟩ => rfl
    | ⟨1, _⟩ => rfl)

/-- The first bias body at (`p`, `q`): the entry plus the bias in column `q`, clipped below at zero. -/
theorem biasClip_at (x : Vec Ideal S10000x128 .f32) (b : Vec Ideal S1x128 .f32) (p : Fin 10000) (q : Fin 128) :
    k1_pay1 (F := Ideal) x b (ix2 p q) = max (x (ix2 p q) + b (ix2 0 q)) (Ideal.ofBits .f32 0x00000000#32) := by
  unfold k1_pay1
  rw [maximumf_apply, addf_apply, shapeCast_self, shapeCast_self, rowBcast128_at]
  rfl

/-- The second bias body at (`p`, `q`): the entry plus the bias in column `q`. -/
theorem bias_at (x : Vec Ideal S10000x64 .f32) (b : Vec Ideal S1x64 .f32) (p : Fin 10000) (q : Fin 64) :
    k3_pay1 (F := Ideal) x b (ix2 p q) = x (ix2 p q) + b (ix2 0 q) := by
  unfold k3_pay1
  rw [addf_apply, shapeCast_self, shapeCast_self, rowBcast64_at]

end Cert.KernelIdeal.Body

end
-- ==== Proof.CallProd128.lean ====
/-
  The first matrix-product call, as one function of the two arrays it finds.
  The call visits ten grid points; point `t` stages rows 10000·t … 10000·t + 9999 of the 128-column input and the whole
  128×128 weight, and writes back the same rows of the result. What it writes at row `r`, column `q` is the sum over the
  128 positions `k` of the input's entry (`r`, `k`) times the weight's entry (`k`, `q`): every row of the result is
  written by exactly one point (the point `r / 10000`), so the result array after the call is that row-by-column
  product of the two arrays as the call found them.
-/
import proofs.«110535_j21569325760838_1_alg».proof.Proof.Gen.KernelIdeal.Frame
import proofs.«110535_j21569325760838_1_alg».proof.Proof.Payloads
import Idealize.ShloMosaic.Lib.Pipeline.Value

noncomputable section

namespace Cert.KernelIdeal.Calls

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Rows of `X` against columns of `W`: entry (`r`, `q`) is the sum over `k` of `X` (`r`, `k`) · `W` (`k`, `q`). -/
def rowsByCols128 (X : Vec Ideal S100000x128 .f32) (W : Vec Ideal S128x128 .f32) : Vec Ideal S100000x128 .f32 :=
  fun i => ∑ k : Fin 128, X (ix2 (⟨(i 0).val, (i 0).isLt⟩ : Fin 100000) k) * W (ix2 k (⟨(i 1).val, (i 1).isLt⟩ : Fin 128))

/-- One stored entry of one block: if the staged input block `x0` is rows `T`·10000 … of `X` and the staged weight is
    `W`, the body's entry at `j` is the product's entry at the array index `i` that `j` sits at. -/
theorem rowsByCols128_block (x0 : Vec Ideal S10000x128 .f32) (x1 : Vec Ideal S128x128 .f32)
    (X : Vec Ideal S100000x128 .f32) (W : Vec Ideal S128x128 .f32) (T : Nat) (j : S10000x128.Idx) (i : S100000x128.Idx)
    (hx0 : ∀ (y : S10000x128.Idx) (i' : S100000x128.Idx), (i' 0).val = T * 10000 + (y 0).val → (i' 1).val = (y 1).val → x0 y = X i')
    (hx1 : x1 = W) (hi0 : (i 0).val = T * 10000 + (j 0).val) (hi1 : (i 1).val = (j 1).val) :
    k0_pay1 (F := Ideal) x0 x1 j = rowsByCols128 X W i := by
  obtain ⟨p, q, rfl⟩ : ∃ (p : Fin 10000) (q : Fin 128), j = ix2 p q := ⟨j 0, j 1, eq_ix2 j⟩
  rw [Body.prod128_at]
  unfold rowsByCols128
  subst hx1
  refine Finset.sum_congr rfl fun k _ => ?_
  have e0 : x0 (ix2 p k) = X (ix2 (⟨(i 0).val, (i 0).isLt⟩ : Fin 100000) k) := hx0 _ _ hi0 rfl
  have e1 : (ix2 k q : S128x128.Idx) = ix2 k (⟨(i 1).val, (i 1).isLt⟩ : Fin 128) := by
    funext a
    match a with
    | ⟨0, _⟩ => rfl
    | ⟨1, _⟩ => exact Fin.ext hi1.symm
  rw [e0, e1]

theorem rowsByCols128_hz : (![0, 0] : Fin 2 → Nat) = fun _ => 0 := funext fun a => by fin_cases a <;> rfl

/-- Where each window's block sits at point `t`: the input's and the result's at block row `t`, the weight's at the origin. -/
theorem rowsByCols128_where : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the call found them. -/
theorem rowsByCols128_flushed (c : Dev nD) (t : Fin cfg0.N) :
    (dat0 V c).flushed 2 t = ((cfg0.win 2).blk t).view.read (Elt Ideal) (rowsByCols128 (V c main_arg1) (V c main_arg2)) := by
  show (cfg0.win 2).cut (grid0.coords t) ((dat0 V c).after 2 t) = _
  rw [after0_2]
  unfold out0_2
  rw [View.canon_unit_zero rowsByCols128_hz]
  simp only [View.ld_unit_zero (S := S10000x128) rowsByCols128_hz, View.ld_unit_zero (S := S128x128) rowsByCols128_hz]
  obtain ⟨e00, e01, e10, e11, e20, e21⟩ := rowsByCols128_where t
  funext j
  show k0_pay1 (F := Ideal) (iblk0 V c 0 t) (iblk0 V c 1 t) j = rowsByCols128 (V c main_arg1) (V c main_arg2) (((cfg0.win 2).blk t).view.emb j)
  refine rowsByCols128_block (iblk0 V c 0 t) (iblk0 V c 1 t) (V c main_arg1) (V c main_arg2) t.val j (((cfg0.win 2).blk t).view.emb j) ?_ ?_ ?_ ?_
  · intro y i' h0 h1
    show V c main_arg1 (((cfg0.win 0).blk t).view.emb y) = V c main_arg1 i'
    refine congrArg (V c main_arg1) (funext fun a => Fin.ext ?_)
    match a with
    | ⟨0, _⟩ => show win0_0.index t (0 : Fin 2) * 10000 + 1 * (y 0).val = (i' 0).val; omega
    | ⟨1, _⟩ => show win0_0.index t (1 : Fin 2) * 128 + 1 * (y 1).val = (i' 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 10000 + 1 * (j 0).val = t.val * 10000 + (j 0).val; omega
  · show win0_2.index t (1 : Fin 2) * 128 + 1 * (j 1).val = (j 1).val; omega

/-- An index of the result array is in point `t`'s block iff each coordinate is in the block's range on its axis. -/
theorem rowsByCols128_mem (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the result array is in the block of the point that holds its row. -/
theorem rowsByCols128_cover (i : S100000x128.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 128 := (i 1).isLt
  let t : Fin cfg0.N := ⟨(i 0).val / 10000, by show (i 0).val / 10000 < grid0.N; omega⟩
  refine ⟨t, flush0_2 t, ?_⟩
  rw [rowsByCols128_mem]
  obtain ⟨e00, e01, e10, e11, e20, e21⟩ := rowsByCols128_where t
  have ht : t.val = (i 0).val / 10000 := rfl
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the call its result array is the product of the two arrays it found. -/
theorem rowsByCols128_final (c : Dev nD) :
    (dat0 V c).arrAt 2 cfg0.N = rowsByCols128 (V c main_arg1) (V c main_arg2) :=
  (dat0 V c).arrAt_eq_of_cover 2 (rowsByCols128 (V c main_arg1) (V c main_arg2)) (fun t _ => rowsByCols128_flushed V c t) rowsByCols128_cover

end Cert.KernelIdeal.Calls

end
-- ==== Proof.CallBiasClip.lean ====
/-
  The first bias call, as one function of the two arrays it finds.
  The call visits ten grid points; point `t` stages rows 10000·t … 10000·t + 9999 of the 128-column input and the one-row
  bias, and writes back the same rows of the result: each entry plus the bias entry of its column, clipped below at zero. Every
  row of the result is written by exactly one point (the point `r / 10000`), so the result array after the call is that
  function of the two arrays as the call found them, entry by entry.
-/
import proofs.«110535_j21569325760838_1_alg».proof.Proof.Gen.KernelIdeal.Frame
import proofs.«110535_j21569325760838_1_alg».proof.Proof.Payloads
import Idealize.ShloMosaic.Lib.Pipeline.Value

noncomputable section

namespace Cert.KernelIdeal.Calls

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Entry (`r`, `q`) of `A` plus entry `q` of the bias row, or zero if that is negative. -/
def biasClipRows (A : Vec Ideal S100000x128 .f32) (b : Vec Ideal S1x128 .f32) : Vec Ideal S100000x128 .f32 :=
  fun i => max (A i + b (ix2 (0 : Fin 1) (⟨(i 1).val, (i 1).isLt⟩ : Fin 128))) (Ideal.ofBits .f32 0x00000000#32)

/-- One stored entry of one block: if the staged input block `x0` is rows `T`·10000 … of `A` and the staged bias row is
    `b`, the body's entry at `j` is the function's entry at the array index `i` that `j` sits at. -/
theorem biasClipRows_block (x0 : Vec Ideal S10000x128 .f32) (x1 : Vec Ideal S1x128 .f32)
    (A : Vec Ideal S100000x128 .f32) (b : Vec Ideal S1x128 .f32) (T : Nat) (j : S10000x128.Idx) (i : S100000x128.Idx)
    (hx0 : ∀ (y : S10000x128.Idx) (i' : S100000x128.Idx), (i' 0).val = T * 10000 + (y 0).val → (i' 1).val = (y 1).val → x0 y = A i')
    (hx1 : x1 = b) (hi0 : (i 0).val = T * 10000 + (j 0).val) (hi1 : (i 1).val = (j 1).val) :
    k1_pay1 (F := Ideal) x0 x1 j = biasClipRows A b i := by
  obtain ⟨p, q, rfl⟩ : ∃ (p : Fin 10000) (q : Fin 128), j = ix2 p q := ⟨j 0, j 1, eq_ix2 j⟩
  rw [Body.biasClip_at]
  unfold biasClipRows
  subst hx1
  have e0 : x0 (ix2 p q) = A i := hx0 _ _ hi0 hi1
  have e1 : (ix2 (0 : Fin 1) q : S1x128.Idx) = ix2 (0 : Fin 1) (⟨(i 1).val, (i 1).isLt⟩ : Fin 128) := by
    funext a
    match a with
    | ⟨0, _⟩ => rfl
    | ⟨1, _⟩ => exact Fin.ext hi1.symm
  rw [e0, e1]

theorem biasClipRows_hz : (![0, 0] : Fin 2 → Nat) = fun _ => 0 := funext fun a => by fin_cases a <;> rfl

/-- Where each window's block sits at point `t`: the input's and the result's at block row `t`, the bias row's at the origin. -/
theorem biasClipRows_where : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of that function of the two arrays as the call found them. -/
theorem biasClipRows_flushed (c : Dev nD) (t : Fin cfg1.N) :
    (dat1 V c).flushed 2 t = ((cfg1.win 2).blk t).view.read (Elt Ideal) (biasClipRows (V c main_v43) (V c main_v44)) := by
  show (cfg1.win 2).cut (grid1.coords t) ((dat1 V c).after 2 t) = _
  rw [after1_2]
  unfold out1_2
  rw [View.canon_unit_zero biasClipRows_hz]
  simp only [View.ld_unit_zero (S := S10000x128) biasClipRows_hz, View.ld_unit_zero (S := S1x128) biasClipRows_hz]
  obtain ⟨e00, e01, e10, e11, e20, e21⟩ := biasClipRows_where t
  funext j
  show k1_pay1 (F := Ideal) (iblk1 V c 0 t) (iblk1 V c 1 t) j = biasClipRows (V c main_v43) (V c main_v44) (((cfg1.win 2).blk t).view.emb j)
  refine biasClipRows_block (iblk1 V c 0 t) (iblk1 V c 1 t) (V c main_v43) (V c main_v44) t.val j (((cfg1.win 2).blk t).view.emb j) ?_ ?_ ?_ ?_
  · intro y i' h0 h1
    show V c main_v43 (((cfg1.win 0).blk t).view.emb y) = V c main_v43 i'
    refine congrArg (V c main_v43) (funext fun a => Fin.ext ?_)
    match a with
    | ⟨0, _⟩ => show win1_0.index t (0 : Fin 2) * 10000 + 1 * (y 0).val = (i' 0).val; omega
    | ⟨1, _⟩ => show win1_0.index t (1 : Fin 2) * 128 + 1 * (y 1).val = (i' 1).val; omega
  · funext y
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (0 : Fin 2) * 10000 + 1 * (j 0).val = t.val * 10000 + (j 0).val; omega
  · show win1_2.index t (1 : Fin 2) * 128 + 1 * (j 1).val = (j 1).val; omega

/-- An index of the result array is in point `t`'s block iff each coordinate is in the block's range on its axis. -/
theorem biasClipRows_mem (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Every index of the result array is in the block of the point that holds its row. -/
theorem biasClipRows_cover (i : S100000x128.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 128 := (i 1).isLt
  let t : Fin cfg1.N := ⟨(i 0).val / 10000, by show (i 0).val / 10000 < grid1.N; omega⟩
  refine ⟨t, flush1_2 t, ?_⟩
  rw [biasClipRows_mem]
  obtain ⟨e00, e01, e10, e11, e20, e21⟩ := biasClipRows_where t
  have ht : t.val = (i 0).val / 10000 := rfl
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the call its result array is that function of the two arrays it found. -/
theorem biasClipRows_final (c : Dev nD) :
    (dat1 V c).arrAt 2 cfg1.N = biasClipRows (V c main_v43) (V c main_v44) :=
  (dat1 V c).arrAt_eq_of_cover 2 (biasClipRows (V c main_v43) (V c main_v44)) (fun t _ => biasClipRows_flushed V c t) biasClipRows_cover

end Cert.KernelIdeal.Calls

end
-- ==== Proof.CallProd64.lean ====
/-
  The second matrix-product call, as one function of the two arrays it finds.
  The call visits ten grid points; point `t` stages rows 10000·t … 10000·t + 9999 of the 128-column input and the whole
  128×64 weight, and writes back the same rows of the result. What it writes at row `r`, column `q` is the sum over the
  128 positions `k` of the input's entry (`r`, `k`) times the weight's entry (`k`, `q`): every row of the result is
  written by exactly one point (the point `r / 10000`), so the result array after the call is that row-by-column
  product of the two arrays as the call found them.
-/
import proofs.«110535_j21569325760838_1_alg».proof.Proof.Gen.KernelIdeal.Frame
import proofs.«110535_j21569325760838_1_alg».proof.Proof.Payloads
import Idealize.ShloMosaic.Lib.Pipeline.Value

noncomputable section

namespace Cert.KernelIdeal.Calls

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Rows of `X` against columns of `W`: entry (`r`, `q`) is the sum over `k` of `X` (`r`, `k`) · `W` (`k`, `q`). -/
def rowsByCols64 (X : Vec Ideal S100000x128 .f32) (W : Vec Ideal S128x64 .f32) : Vec Ideal S100000x64 .f32 :=
  fun i => ∑ k : Fin 128, X (ix2 (⟨(i 0).val, (i 0).isLt⟩ : Fin 100000) k) * W (ix2 k (⟨(i 1).val, (i 1).isLt⟩ : Fin 64))

/-- One stored entry of one block: if the staged input block `x0` is rows `T`·10000 … of `X` and the staged weight is
    `W`, the body's entry at `j` is the product's entry at the array index `i` that `j` sits at. -/
theorem rowsByCols64_block (x0 : Vec Ideal S10000x128 .f32) (x1 : Vec Ideal S128x64 .f32)
    (X : Vec Ideal S100000x128 .f32) (W : Vec Ideal S128x64 .f32) (T : Nat) (j : S10000x64.Idx) (i : S100000x64.Idx)
    (hx0 : ∀ (y : S10000x128.Idx) (i' : S100000x128.Idx), (i' 0).val = T * 10000 + (y 0).val → (i' 1).val = (y 1).val → x0 y = X i')
    (hx1 : x1 = W) (hi0 : (i 0).val = T * 10000 + (j 0).val) (hi1 : (i 1).val = (j 1).val) :
    k2_pay1 (F := Ideal) x0 x1 j = rowsByCols64 X W i := by
  obtain ⟨p, q, rfl⟩ : ∃ (p : Fin 10000) (q : Fin 64), j = ix2 p q := ⟨j 0, j 1, eq_ix2 j⟩
  rw [Body.prod64_at]
  unfold rowsByCols64
  subst hx1
  refine Finset.sum_congr rfl fun k _ => ?_
  have e0 : x0 (ix2 p k) = X (ix2 (⟨(i 0).val, (i 0).isLt⟩ : Fin 100000) k) := hx0 _ _ hi0 rfl
  have e1 : (ix2 k q : S128x64.Idx) = ix2 k (⟨(i 1).val, (i 1).isLt⟩ : Fin 64) := by
    funext a
    match a with
    | ⟨0, _⟩ => rfl
    | ⟨1, _⟩ => exact Fin.ext hi1.symm
  rw [e0, e1]

theorem rowsByCols64_hz : (![0, 0] : Fin 2 → Nat) = fun _ => 0 := funext fun a => by fin_cases a <;> rfl

/-- Where each window's block sits at point `t`: the input's and the result's at block row `t`, the weight's at the origin. -/
theorem rowsByCols64_where : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the call found them. -/
theorem rowsByCols64_flushed (c : Dev nD) (t : Fin cfg2.N) :
    (dat2 V c).flushed 2 t = ((cfg2.win 2).blk t).view.read (Elt Ideal) (rowsByCols64 (V c main_v45) (V c main_arg4)) := by
  show (cfg2.win 2).cut (grid2.coords t) ((dat2 V c).after 2 t) = _
  rw [after2_2]
  unfold out2_2
  rw [View.canon_unit_zero rowsByCols64_hz]
  simp only [View.ld_unit_zero (S := S10000x128) rowsByCols64_hz, View.ld_unit_zero (S := S128x64) rowsByCols64_hz]
  obtain ⟨e00, e01, e10, e11, e20, e21⟩ := rowsByCols64_where t
  funext j
  show k2_pay1 (F := Ideal) (iblk2 V c 0 t) (iblk2 V c 1 t) j = rowsByCols64 (V c main_v45) (V c main_arg4) (((cfg2.win 2).blk t).view.emb j)
  refine rowsByCols64_block (iblk2 V c 0 t) (iblk2 V c 1 t) (V c main_v45) (V c main_arg4) t.val j (((cfg2.win 2).blk t).view.emb j) ?_ ?_ ?_ ?_
  · intro y i' h0 h1
    show V c main_v45 (((cfg2.win 0).blk t).view.emb y) = V c main_v45 i'
    refine congrArg (V c main_v45) (funext fun a => Fin.ext ?_)
    match a with
    | ⟨0, _⟩ => show win2_0.index t (0 : Fin 2) * 10000 + 1 * (y 0).val = (i' 0).val; omega
    | ⟨1, _⟩ => show win2_0.index t (1 : Fin 2) * 128 + 1 * (y 1).val = (i' 1).val; omega
  · funext y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show win2_2.index t (0 : Fin 2) * 10000 + 1 * (j 0).val = t.val * 10000 + (j 0).val; omega
  · show win2_2.index t (1 : Fin 2) * 64 + 1 * (j 1).val = (j 1).val; omega

/-- An index of the result array is in point `t`'s block iff each coordinate is in the block's range on its axis. -/
theorem rowsByCols64_mem (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every index of the result array is in the block of the point that holds its row. -/
theorem rowsByCols64_cover (i : S100000x64.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 64 := (i 1).isLt
  let t : Fin cfg2.N := ⟨(i 0).val / 10000, by show (i 0).val / 10000 < grid2.N; omega⟩
  refine ⟨t, flush2_2 t, ?_⟩
  rw [rowsByCols64_mem]
  obtain ⟨e00, e01, e10, e11, e20, e21⟩ := rowsByCols64_where t
  have ht : t.val = (i 0).val / 10000 := rfl
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the call its result array is the product of the two arrays it found. -/
theorem rowsByCols64_final (c : Dev nD) :
    (dat2 V c).arrAt 2 cfg2.N = rowsByCols64 (V c main_v45) (V c main_arg4) :=
  (dat2 V c).arrAt_eq_of_cover 2 (rowsByCols64 (V c main_v45) (V c main_arg4)) (fun t _ => rowsByCols64_flushed V c t) rowsByCols64_cover

end Cert.KernelIdeal.Calls

end
-- ==== Proof.CallBias.lean ====
/-
  The second bias call, as one function of the two arrays it finds.
  The call visits ten grid points; point `t` stages rows 10000·t … 10000·t + 9999 of the 64-column input and the one-row
  bias, and writes back the same rows of the result: each entry plus the bias entry of its column. Every
  row of the result is written by exactly one point (the point `r / 10000`), so the result array after the call is that
  function of the two arrays as the call found them, entry by entry.
-/
import proofs.«110535_j21569325760838_1_alg».proof.Proof.Gen.KernelIdeal.Frame
import proofs.«110535_j21569325760838_1_alg».proof.Proof.Payloads
import Idealize.ShloMosaic.Lib.Pipeline.Value

noncomputable section

namespace Cert.KernelIdeal.Calls

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Entry (`r`, `q`) of `A` plus entry `q` of the bias row. -/
def biasRows (A : Vec Ideal S100000x64 .f32) (b : Vec Ideal S1x64 .f32) : Vec Ideal S100000x64 .f32 :=
  fun i => A i + b (ix2 (0 : Fin 1) (⟨(i 1).val, (i 1).isLt⟩ : Fin 64))

/-- One stored entry of one block: if the staged input block `x0` is rows `T`·10000 … of `A` and the staged bias row is
    `b`, the body's entry at `j` is the function's entry at the array index `i` that `j` sits at. -/
theorem biasRows_block (x0 : Vec Ideal S10000x64 .f32) (x1 : Vec Ideal S1x64 .f32)
    (A : Vec Ideal S100000x64 .f32) (b : Vec Ideal S1x64 .f32) (T : Nat) (j : S10000x64.Idx) (i : S100000x64.Idx)
    (hx0 : ∀ (y : S10000x64.Idx) (i' : S100000x64.Idx), (i' 0).val = T * 10000 + (y 0).val → (i' 1).val = (y 1).val → x0 y = A i')
    (hx1 : x1 = b) (hi0 : (i 0).val = T * 10000 + (j 0).val) (hi1 : (i 1).val = (j 1).val) :
    k3_pay1 (F := Ideal) x0 x1 j = biasRows A b i := by
  obtain ⟨p, q, rfl⟩ : ∃ (p : Fin 10000) (q : Fin 64), j = ix2 p q := ⟨j 0, j 1, eq_ix2 j⟩
  rw [Body.bias_at]
  unfold biasRows
  subst hx1
  have e0 : x0 (ix2 p q) = A i := hx0 _ _ hi0 hi1
  have e1 : (ix2 (0 : Fin 1) q : S1x64.Idx) = ix2 (0 : Fin 1) (⟨(i 1).val, (i 1).isLt⟩ : Fin 64) := by
    funext a
    match a with
    | ⟨0, _⟩ => rfl
    | ⟨1, _⟩ => exact Fin.ext hi1.symm
  rw [e0, e1]

theorem biasRows_hz : (![0, 0] : Fin 2 → Nat) = fun _ => 0 := funext fun a => by fin_cases a <;> rfl

/-- Where each window's block sits at point `t`: the input's and the result's at block row `t`, the bias row's at the origin. -/
theorem biasRows_where : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of that function of the two arrays as the call found them. -/
theorem biasRows_flushed (c : Dev nD) (t : Fin cfg3.N) :
    (dat3 V c).flushed 2 t = ((cfg3.win 2).blk t).view.read (Elt Ideal) (biasRows (V c main_v59) (V c main_v60)) := by
  show (cfg3.win 2).cut (grid3.coords t) ((dat3 V c).after 2 t) = _
  rw [after3_2]
  unfold out3_2
  rw [View.canon_unit_zero biasRows_hz]
  simp only [View.ld_unit_zero (S := S10000x64) biasRows_hz, View.ld_unit_zero (S := S1x64) biasRows_hz]
  obtain ⟨e00, e01, e10, e11, e20, e21⟩ := biasRows_where t
  funext j
  show k3_pay1 (F := Ideal) (iblk3 V c 0 t) (iblk3 V c 1 t) j = biasRows (V c main_v59) (V c main_v60) (((cfg3.win 2).blk t).view.emb j)
  refine biasRows_block (iblk3 V c 0 t) (iblk3 V c 1 t) (V c main_v59) (V c main_v60) t.val j (((cfg3.win 2).blk t).view.emb j) ?_ ?_ ?_ ?_
  · intro y i' h0 h1
    show V c main_v59 (((cfg3.win 0).blk t).view.emb y) = V c main_v59 i'
    refine congrArg (V c main_v59) (funext fun a => Fin.ext ?_)
    match a with
    | ⟨0, _⟩ => show win3_0.index t (0 : Fin 2) * 10000 + 1 * (y 0).val = (i' 0).val; omega
    | ⟨1, _⟩ => show win3_0.index t (1 : Fin 2) * 64 + 1 * (y 1).val = (i' 1).val; omega
  · funext y
    show V c main_v60 (((cfg3.win 1).blk t).view.emb y) = V c main_v60 y
    refine congrArg (V c main_v60) (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  · show win3_2.index t (0 : Fin 2) * 10000 + 1 * (j 0).val = t.val * 10000 + (j 0).val; omega
  · show win3_2.index t (1 : Fin 2) * 64 + 1 * (j 1).val = (j 1).val; omega

/-- An index of the result array is in point `t`'s block iff each coordinate is in the block's range on its axis. -/
theorem biasRows_mem (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Every index of the result array is in the block of the point that holds its row. -/
theorem biasRows_cover (i : S100000x64.Idx) :
    ∃ t : Fin cfg3.N, (cfg3.win 2).flush t = true ∧ i ∈ ((cfg3.win 2).blk t).view.set := by
  have hN : grid3.N = 10 := N_3
  have hi0 : (i 0).val < 100000 := (i 0).isLt
  have hi1 : (i 1).val < 64 := (i 1).isLt
  let t : Fin cfg3.N := ⟨(i 0).val / 10000, by show (i 0).val / 10000 < grid3.N; omega⟩
  refine ⟨t, flush3_2 t, ?_⟩
  rw [biasRows_mem]
  obtain ⟨e00, e01, e10, e11, e20, e21⟩ := biasRows_where t
  have ht : t.val = (i 0).val / 10000 := rfl
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the call its result array is that function of the two arrays it found. -/
theorem biasRows_final (c : Dev nD) :
    (dat3 V c).arrAt 2 cfg3.N = biasRows (V c main_v59) (V c main_v60) :=
  (dat3 V c).arrAt_eq_of_cover 2 (biasRows (V c main_v59) (V c main_v60)) (fun t _ => biasRows_flushed V c t) biasRows_cover

end Cert.KernelIdeal.Calls

end
-- ==== Proof.Bridge.lean ====
/-
  The four kernel calls against the reference's stages, entry by entry.
  A product call's row-by-column sums are the reference's `dot_general` of the same two arrays: at the ideal instance that
  operation is the same sum over the 128 contracted positions. A bias call adds to every row the bias vector laid out as a
  one-row matrix; the reference broadcasts the vector to a one-row matrix and that to every row: both read, at (`r`, `q`),
  the vector's entry `q`. The clip below at zero is the reference's maximum with a zero array.
-/
import proofs.«110535_j21569325760838_1_alg».proof.Proof.CallProd128
import proofs.«110535_j21569325760838_1_alg».proof.Proof.CallBiasClip
import proofs.«110535_j21569325760838_1_alg».proof.Proof.CallProd64
import proofs.«110535_j21569325760838_1_alg».proof.Proof.CallBias
import proofs.«110535_j21569325760838_1_alg».proof.Proof.RefRead
import Idealize.ShloMosaic.Lib.ValueLayout

noncomputable section

namespace Cert.Bridge

open Idealize.ShloMosaic Idealize.ShloMosaic.TcCoe Idealize.ShloMosaic.ValueIdx
open Cert.ReferenceIdeal.ReadP
open scoped BigOperators

/-- The first product call's function is the reference's first `dot_general`. -/
theorem prod128_is (x1 : (⟨Cert.ReferenceIdeal.S100000x128, .f32⟩ : BufTy).Contents (Elt Ideal)) (x2 : (⟨Cert.ReferenceIdeal.S128x128, .f32⟩ : BufTy).Contents (Elt Ideal)) :
    Cert.KernelIdeal.Calls.rowsByCols128 x1 x2 = val_main_v4 (F := Ideal) x1 x2 := by
  funext i
  refine Eq.trans (Finset.sum_congr rfl fun k _ => ?_) (val_main_v4_apply x1 x2 i).symm
  exact congrArg₂ (· * ·) (congrArg x1 (funext fun a => by match a with | ⟨0, _⟩ => rfl | ⟨1, _⟩ => rfl))
    (congrArg x2 (funext fun a => by match a with | ⟨0, _⟩ => rfl | ⟨1, _⟩ => rfl))

/-- The second product call's function, of the reference's clipped first layer, is the reference's second `dot_general`. -/
theorem prod64_is (x0 : (⟨Cert.ReferenceIdeal.S2x1600000, .i32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x64, .f32⟩ : BufTy).Contents (Elt Ideal)) :
    Cert.KernelIdeal.Calls.rowsByCols64 (val_main_v47 (F := Ideal) x0 x1 x2 x3) x4 = val_main_v48 (F := Ideal) x0 x1 x2 x3 x4 := by
  funext i
  refine Eq.trans (Finset.sum_congr rfl fun k _ => ?_) (val_main_v48_apply x0 x1 x2 x3 x4 i).symm
  exact congrArg₂ (· * ·) (congrArg (val_main_v47 (F := Ideal) x0 x1 x2 x3) (funext fun a => by match a with | ⟨0, _⟩ => rfl | ⟨1, _⟩ => rfl))
    (congrArg x4 (funext fun a => by match a with | ⟨0, _⟩ => rfl | ⟨1, _⟩ => rfl))

/-- The clipped-bias call's function, of an array `A` and the bias vector as a one-row matrix, is the reference's sum with
    the broadcast vector followed by its maximum with zero. -/
theorem clip_is (A : (⟨Cert.ReferenceIdeal.S100000x128, .f32⟩ : BufTy).Contents (Elt Ideal)) (x3 : (⟨Cert.ReferenceIdeal.S128, .f32⟩ : BufTy).Contents (Elt Ideal)) :
    Cert.KernelIdeal.Calls.biasClipRows A (shapeCast Cert.KernelIdeal.S1x128 x3 Cert.KernelIdeal.Gen.shapeCasts_S128_S1x128)
      = maximumf (F := Ideal) (φ := .f32) (addf (F := Ideal) (φ := .f32) A (val_main_v45 (F := Ideal) x3)) (val_main_call1_v0 (F := Ideal)) := by
  funext i
  have e1 : shapeCast Cert.KernelIdeal.S1x128 x3 Cert.KernelIdeal.Gen.shapeCasts_S128_S1x128 (ix2 (0 : Fin 1) (⟨(i 1).val, (i 1).isLt⟩ : Fin 128))
      = x3 (ix1 (⟨(i 1).val, (i 1).isLt⟩ : Fin 128)) :=
    shapeCast_a_1a_apply x3 Cert.KernelIdeal.Gen.shapeCasts_S128_S1x128 0 _
  have e2 : val_main_v45 (F := Ideal) x3 i = x3 (ix1 (⟨(i 1).val, (i 1).isLt⟩ : Fin 128)) := by
    rw [val_main_v45_apply, val_main_v44_apply]
    exact congrArg x3 (funext fun a => by match a with | ⟨0, _⟩ => rfl)
  have e3 : val_main_call1_v0 (F := Ideal) i = Ideal.ofBits .f32 0x00000000#32 := by
    rw [val_main_call1_v0_apply]; rfl
  show max (A i + shapeCast Cert.KernelIdeal.S1x128 x3 Cert.KernelIdeal.Gen.shapeCasts_S128_S1x128 (ix2 (0 : Fin 1) (⟨(i 1).val, (i 1).isLt⟩ : Fin 128))) (Ideal.ofBits .f32 0x00000000#32)
    = max (A i + val_main_v45 (F := Ideal) x3 i) (val_main_call1_v0 (F := Ideal) i)
  rw [e1, e2, e3]

/-- The last bias call's function, of an array `A` and the bias vector as a one-row matrix, is the reference's sum with the
    broadcast vector. -/
theorem bias_is (A : (⟨Cert.ReferenceIdeal.S100000x64, .f32⟩ : BufTy).Contents (Elt Ideal)) (x5 : (⟨Cert.ReferenceIdeal.S64, .f32⟩ : BufTy).Contents (Elt Ideal)) :
    Cert.KernelIdeal.Calls.biasRows A (shapeCast Cert.KernelIdeal.S1x64 x5 Cert.KernelIdeal.Gen.shapeCasts_S64_S1x64) = addf (F := Ideal) (φ := .f32) A (val_main_v89 (F := Ideal) x5) := by
  funext i
  have e1 : shapeCast Cert.KernelIdeal.S1x64 x5 Cert.KernelIdeal.Gen.shapeCasts_S64_S1x64 (ix2 (0 : Fin 1) (⟨(i 1).val, (i 1).isLt⟩ : Fin 64))
      = x5 (ix1 (⟨(i 1).val, (i 1).isLt⟩ : Fin 64)) :=
    shapeCast_a_1a_apply x5 Cert.KernelIdeal.Gen.shapeCasts_S64_S1x64 0 _
  have e2 : val_main_v89 (F := Ideal) x5 i = x5 (ix1 (⟨(i 1).val, (i 1).isLt⟩ : Fin 64)) := by
    rw [val_main_v89_apply, val_main_v88_apply]
    exact congrArg x5 (funext fun a => by match a with | ⟨0, _⟩ => rfl)
  show A i + shapeCast Cert.KernelIdeal.S1x64 x5 Cert.KernelIdeal.Gen.shapeCasts_S64_S1x64 (ix2 (0 : Fin 1) (⟨(i 1).val, (i 1).isLt⟩ : Fin 64))
    = A i + val_main_v89 (F := Ideal) x5 i
  rw [e1, e2]

/-- The reference's clipped first layer, spelt over its aggregation stage. -/
theorem stage47 (x0 : (⟨Cert.ReferenceIdeal.S2x1600000, .i32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) :
    val_main_v47 (F := Ideal) x0 x1 x2 x3
      = maximumf (F := Ideal) (φ := .f32) (addf (F := Ideal) (φ := .f32) (val_main_v43 (F := Ideal) x0 x1 x2) (val_main_v45 (F := Ideal) x3)) (val_main_call1_v0 (F := Ideal)) := rfl

/-- The reference's result, spelt over its second aggregation stage. -/
theorem stage90 (x0 : (⟨Cert.ReferenceIdeal.S2x1600000, .i32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal)) :
    val_main_v90 (F := Ideal) x0 x1 x2 x3 x4 x5
      = addf (F := Ideal) (φ := .f32) (val_main_v87 (F := Ideal) x0 x1 x2 x3 x4) (val_main_v89 (F := Ideal) x5) := rfl

end Cert.Bridge

end
-- ==== Proof.Walk.lean ====
/-
  The returned buffer of the idealized kernel program, followed back through the segments to the six arguments.
  Before the first call the host writes the source list, the destination list and the edge weights; they stay as written
  to the end, since no later segment writes them. The first product call leaves the reference's first `dot_general` of the
  features and the first weight; the stretch after it the reference's first aggregation stage and the first bias as a
  one-row matrix; the clipped-bias call the reference's clipped first layer; the second product call the reference's second
  `dot_general`; the stretch after it the reference's second aggregation stage and the second bias as a one-row matrix; the
  last call the reference's result.
-/
import proofs.«110535_j21569325760838_1_alg».proof.Proof.KernelRun
import proofs.«110535_j21569325760838_1_alg».proof.Proof.HostStretches
import proofs.«110535_j21569325760838_1_alg».proof.Proof.Bridge

set_option maxRecDepth 16384

noncomputable section

namespace Cert.KernelIdeal.Walk

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-! ## At the first call's entry -/

theorem w3_src : W3 m ρ c (Proc.devRef .tc main_v5) = val_main_v6 (F := Ideal) (m ((c.tc : Thread nD τ).loc main_arg0)) := Host.before0_src (W0 m ρ c)
theorem w3_dst : W3 m ρ c (Proc.devRef .tc main_v6) = val_main_v7 (F := Ideal) (m ((c.tc : Thread nD τ).loc main_arg0)) := Host.before0_dst (W0 m ρ c)
theorem w3_nrm : W3 m ρ c (Proc.devRef .tc main_v29) = val_main_v30 (F := Ideal) (m ((c.tc : Thread nD τ).loc main_arg0)) := Host.before0_nrm (W0 m ρ c)
theorem w3_arg1 : W3 m ρ c (Proc.devRef .tc main_arg1) = (m ((c.tc : Thread nD τ).loc main_arg1)) := Host.before0_keep_main_arg1 (W0 m ρ c)
theorem w3_arg2 : W3 m ρ c (Proc.devRef .tc main_arg2) = (m ((c.tc : Thread nD τ).loc main_arg2)) := Host.before0_keep_main_arg2 (W0 m ρ c)
theorem w3_arg3 : W3 m ρ c (Proc.devRef .tc main_arg3) = (m ((c.tc : Thread nD τ).loc main_arg3)) := Host.before0_keep_main_arg3 (W0 m ρ c)
theorem w3_arg4 : W3 m ρ c (Proc.devRef .tc main_arg4) = (m ((c.tc : Thread nD τ).loc main_arg4)) := Host.before0_keep_main_arg4 (W0 m ρ c)
theorem w3_arg5 : W3 m ρ c (Proc.devRef .tc main_arg5) = (m ((c.tc : Thread nD τ).loc main_arg5)) := Host.before0_keep_main_arg5 (W0 m ρ c)

/-! ## After the first product call -/

theorem w4_prod : W4 m ρ c (Proc.devRef .tc main_v30) = val_main_v4 (F := Ideal) (m ((c.tc : Thread nD τ).loc main_arg1)) (m ((c.tc : Thread nD τ).loc main_arg2)) := by
  refine (W4_arr m ρ c 2).trans ?_
  refine (Calls.rowsByCols128_final (V3 m ρ) c).trans ?_
  show Calls.rowsByCols128 (W3 m ρ c (Proc.devRef .tc main_arg1)) (W3 m ρ c (Proc.devRef .tc main_arg2)) = _
  rw [w3_arg1 m ρ c, w3_arg2 m ρ c, Bridge.prod128_is]

theorem w4_src : W4 m ρ c (Proc.devRef .tc main_v5) = val_main_v6 (F := Ideal) (m ((c.tc : Thread nD τ).loc main_arg0)) :=
  (W4_of_ne m ρ c main_v5 (by decide)).trans (w3_src m ρ c)
theorem w4_dst : W4 m ρ c (Proc.devRef .tc main_v6) = val_main_v7 (F := Ideal) (m ((c.tc : Thread nD τ).loc main_arg0)) :=
  (W4_of_ne m ρ c main_v6 (by decide)).trans (w3_dst m ρ c)
theorem w4_nrm : W4 m ρ c (Proc.devRef .tc main_v29) = val_main_v30 (F := Ideal) (m ((c.tc : Thread nD τ).loc main_arg0)) :=
  (W4_of_ne m ρ c main_v29 (by decide)).trans (w3_nrm m ρ c)
theorem w4_arg3 : W4 m ρ c (Proc.devRef .tc main_arg3) = (m ((c.tc : Thread nD τ).loc main_arg3)) :=
  (W4_of_ne m ρ c main_arg3 (by decide)).trans (w3_arg3 m ρ c)
theorem w4_arg4 : W4 m ρ c (Proc.devRef .tc main_arg4) = (m ((c.tc : Thread nD τ).loc main_arg4)) :=
  (W4_of_ne m ρ c main_arg4 (by decide)).trans (w3_arg4 m ρ c)
theorem w4_arg5 : W4 m ρ c (Proc.devRef .tc main_arg5) = (m ((c.tc : Thread nD τ).loc main_arg5)) :=
  (W4_of_ne m ρ c main_arg5 (by decide)).trans (w3_arg5 m ρ c)

/-! ## After the stretch that follows it -/

theorem w5_agg : W5 m ρ c (Proc.devRef .tc main_v43) = val_main_v43 (F := Ideal) (m ((c.tc : Thread nD τ).loc main_arg0)) (m ((c.tc : Thread nD τ).loc main_arg1)) (m ((c.tc : Thread nD τ).loc main_arg2)) := by
  refine (Host.mid_agg (W4 m ρ c)).trans ?_
  rw [w4_prod m ρ c, w4_src m ρ c, w4_dst m ρ c, w4_nrm m ρ c]
  exact (Cert.ReferenceIdeal.Agg.stage43 (m ((c.tc : Thread nD τ).loc main_arg0)) (m ((c.tc : Thread nD τ).loc main_arg1)) (m ((c.tc : Thread nD τ).loc main_arg2))).symm

theorem w5_bias : W5 m ρ c (Proc.devRef .tc main_v44) = shapeCast S1x128 (m ((c.tc : Thread nD τ).loc main_arg3)) Cert.KernelIdeal.Gen.shapeCasts_S128_S1x128 := by
  refine (Host.mid_bias (W4 m ρ c)).trans ?_
  rw [w4_arg3 m ρ c]

theorem w5_src : W5 m ρ c (Proc.devRef .tc main_v5) = val_main_v6 (F := Ideal) (m ((c.tc : Thread nD τ).loc main_arg0)) := (Host.mid_keep_main_v5 (W4 m ρ c)).trans (w4_src m ρ c)
theorem w5_dst : W5 m ρ c (Proc.devRef .tc main_v6) = val_main_v7 (F := Ideal) (m ((c.tc : Thread nD τ).loc main_arg0)) := (Host.mid_keep_main_v6 (W4 m ρ c)).trans (w4_dst m ρ c)
theorem w5_nrm : W5 m ρ c (Proc.devRef .tc main_v29) = val_main_v30 (F := Ideal) (m ((c.tc : Thread nD τ).loc main_arg0)) := (Host.mid_keep_main_v29 (W4 m ρ c)).trans (w4_nrm m ρ c)
theorem w5_arg4 : W5 m ρ c (Proc.devRef .tc main_arg4) = (m ((c.tc : Thread nD τ).loc main_arg4)) := (Host.mid_keep_main_arg4 (W4 m ρ c)).trans (w4_arg4 m ρ c)
theorem w5_arg5 : W5 m ρ c (Proc.devRef .tc main_arg5) = (m ((c.tc : Thread nD τ).loc main_arg5)) := (Host.mid_keep_main_arg5 (W4 m ρ c)).trans (w4_arg5 m ρ c)

/-! ## After the clipped-bias call -/

theorem w6_clip : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  refine (Calls.biasClipRows_final (V5 m ρ) c).trans ?_
  show Calls.biasClipRows (W5 m ρ c (Proc.devRef .tc main_v43)) (W5 m ρ c (Proc.devRef .tc main_v44)) = _
  rw [w5_agg m ρ c, w5_bias m ρ c, Bridge.clip_is, Bridge.stage47]

theorem w6_src : W6 m ρ c (Proc.devRef .tc main_v5) = val_main_v6 (F := Ideal) (m ((c.tc : Thread nD τ).loc main_arg0)) := (W6_of_ne m ρ c main_v5 (by decide)).trans (w5_src m ρ c)
theorem w6_dst : W6 m ρ c (Proc.devRef .tc main_v6) = val_main_v7 (F := Ideal) (m ((c.tc : Thread nD τ).loc main_arg0)) := (W6_of_ne m ρ c main_v6 (by decide)).trans (w5_dst m ρ c)
theorem w6_nrm : W6 m ρ c (Proc.devRef .tc main_v29) = val_main_v30 (F := Ideal) (m ((c.tc : Thread nD τ).loc main_arg0)) := (W6_of_ne m ρ c main_v29 (by decide)).trans (w5_nrm m ρ c)
theorem w6_arg4 : W6 m ρ c (Proc.devRef .tc main_arg4) = (m ((c.tc : Thread nD τ).loc main_arg4)) := (W6_of_ne m ρ c main_arg4 (by decide)).trans (w5_arg4 m ρ c)
theorem w6_arg5 : W6 m ρ c (Proc.devRef .tc main_arg5) = (m ((c.tc : Thread nD τ).loc main_arg5)) := (W6_of_ne m ρ c main_arg5 (by decide)).trans (w5_arg5 m ρ c)

/-! ## After the second product call -/

theorem w7_prod : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Calls.rowsByCols64_final (V6 m ρ) c).trans ?_
  show Calls.rowsByCols64 (W6 m ρ c (Proc.devRef .tc main_v45)) (W6 m ρ c (Proc.devRef .tc main_arg4)) = _
  rw [w6_clip m ρ c, w6_arg4 m ρ c, Bridge.prod64_is]

theorem w7_src : W7 m ρ c (Proc.devRef .tc main_v5) = val_main_v6 (F := Ideal) (m ((c.tc : Thread nD τ).loc main_arg0)) := (W7_of_ne m ρ c main_v5 (by decide)).trans (w6_src m ρ c)
theorem w7_dst : W7 m ρ c (Proc.devRef .tc main_v6) = val_main_v7 (F := Ideal) (m ((c.tc : Thread nD τ).loc main_arg0)) := (W7_of_ne m ρ c main_v6 (by decide)).trans (w6_dst m ρ c)
theorem w7_nrm : W7 m ρ c (Proc.devRef .tc main_v29) = val_main_v30 (F := Ideal) (m ((c.tc : Thread nD τ).loc main_arg0)) := (W7_of_ne m ρ c main_v29 (by decide)).trans (w6_nrm m ρ c)
theorem w7_arg5 : W7 m ρ c (Proc.devRef .tc main_arg5) = (m ((c.tc : Thread nD τ).loc main_arg5)) := (W7_of_ne m ρ c main_arg5 (by decide)).trans (w6_arg5 m ρ c)

/-! ## After the stretch that follows it -/

theorem w8_agg : W8 m ρ c (Proc.devRef .tc main_v59) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Host.last_agg (W7 m ρ c)).trans ?_
  rw [w7_prod m ρ c, w7_src m ρ c, w7_dst m ρ c, w7_nrm m ρ c]
  exact (Cert.ReferenceIdeal.Agg.stage87 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm

theorem w8_bias : W8 m ρ c (Proc.devRef .tc main_v60) = shapeCast S1x64 (m ((c.tc : Thread nD τ).loc main_arg5)) Cert.KernelIdeal.Gen.shapeCasts_S64_S1x64 := by
  refine (Host.last_bias (W7 m ρ c)).trans ?_
  rw [w7_arg5 m ρ c]

/-! ## After the last call -/

/-- The returned buffer ends at the reference's result stage of the six arguments. -/
theorem w9_out : W9 m ρ c (Proc.devRef .tc main_v61) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  refine (Calls.biasRows_final (V8 m ρ) c).trans ?_
  show Calls.biasRows (W8 m ρ c (Proc.devRef .tc main_v59)) (W8 m ρ c (Proc.devRef .tc main_v60)) = _
  rw [w8_agg m ρ c, w8_bias m ρ c, Bridge.bias_is, Bridge.stage90]

/-- Every weakly fair execution of the idealized kernel program terminates without a fault, with the returned buffer at
    the reference's result stage of the six arguments and the arguments as launched. -/
theorem run_value : θ_run defs (onTc (τ := τ) (main (F := Ideal))) ⟨m, fun _ => 0, ρ⟩ (fun r => ∀ c : Dev nD,
      r.2.mem ((c.tc : Thread nD τ).loc main_v61) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w9_out m ρ c), (h c).2⟩) (Whole.run_named m ρ)

end Cert.KernelIdeal.Walk

end
-- ==== Proof.lean ====
/-
  A two-layer graph convolution, computed by four kernel calls among host operations, against the same network written
  with whole-array operations.
  Each layer multiplies the node features by a weight matrix, sums over every edge (and one self-loop per node) the source
  node's product row scaled by the edge weight into the destination node's row, and adds a bias; the first layer is then
  clipped below at zero. The edge weight is the product of the two end nodes' inverse square-root degrees (zero for a node
  of degree zero). The kernel program computes the two products and the two bias steps in calls that visit the rows in ten
  blocks of 10000, rounding the product's operands to bf16 on the way in; the gathers, the weights and the sums over edges
  are the same host operations as the reference's, in the same order, and the reference recomputes the node lists and the
  weights for its second layer by the operations of the first.
  On the extended reals the rounding is the identity, a product call's entry is the sum over the 128 contracted positions
  that `dot_general` is, and a bias call's entry is the entry plus the bias of its column: so the kernel program's returned
  array is, stage by stage, the reference's. No step uses a law that fails at an infinity, and the precondition is not used.
  The kernel was not rewritten by the idealization, so there is nothing to preserve.
-/
import proofs.«110535_j21569325760838_1_alg».proof.Defs
import proofs.«110535_j21569325760838_1_alg».proof.Proof.Gen.Kernel
import proofs.«110535_j21569325760838_1_alg».proof.Proof.Gen.Kernel.Frame
import proofs.«110535_j21569325760838_1_alg».proof.Proof.Gen.KernelIdeal
import proofs.«110535_j21569325760838_1_alg».proof.Proof.Gen.KernelIdeal.Frame
import proofs.«110535_j21569325760838_1_alg».proof.Proof.Gen.ReferenceIdeal
import proofs.«110535_j21569325760838_1_alg».proof.Proof.Gen.Pre_finite_inputs
import proofs.«110535_j21569325760838_1_alg».proof.Proof.RefRun
import proofs.«110535_j21569325760838_1_alg».proof.Proof.RefRead
import proofs.«110535_j21569325760838_1_alg».proof.Proof.Walk
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories that agree on the six arguments, end with the returned arrays equal: each is the
    reference's result stage of the arguments. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Walk.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
